-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S16x32 .f32) (main_arg6 : FVec F S32 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x64 .f32) (main_arg1 : IVec S2x3200000 32) (main_arg2 : FVec F S3200000 .f32) (main_arg3 : FVec F S64x16 .f32) (main_arg4 : FVec F S16 .f32) (main_arg5 : FVec F S16x32 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S100000x1 : Shape := ⟨2, ![100000, 1]⟩
abbrev S3300000x16 : Shape := ⟨2, ![3300000, 16]⟩
abbrev S100000x32 : Shape := ⟨2, ![100000, 32]⟩
abbrev S10000x64 : Shape := ⟨2, ![10000, 64]⟩
abbrev S10000x16 : Shape := ⟨2, ![10000, 16]⟩
abbrev S10000x32 : Shape := ⟨2, ![10000, 32]⟩
abbrev S1x16 : Shape := ⟨2, ![1, 16]⟩
abbrev S1x32 : Shape := ⟨2, ![1, 32]⟩

abbrev nBuf : Space → Nat
  | .hbm => 62
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S64x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x16, .f32⟩
  | .hbm, ⟨30, _⟩ => ⟨S100000x1, .f32⟩
  | .hbm, ⟨31, _⟩ => ⟨S100000x16, .f32⟩
  | .hbm, ⟨32, _⟩ => ⟨S100000x16, .f32⟩
  | .hbm, ⟨33, _⟩ => ⟨S100000x16, .bf16⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000x16, .bf16⟩
  | .hbm, ⟨43, _⟩ => ⟨S3300000x16, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S3300000x1, .f32⟩
  | .hbm, ⟨55, _⟩ => ⟨S3300000x16, .f32⟩
  | .hbm, ⟨56, _⟩ => ⟨S3300000x16, .f32⟩
  | .hbm, ⟨57, _⟩ => ⟨S_, .f32⟩
  | .hbm, ⟨58, _⟩ => ⟨S100000x16, .f32⟩
  | .hbm, ⟨59, _⟩ => ⟨S3300000x1, .i32⟩
  | .hbm, ⟨60, _⟩ => ⟨S100000x16, .f32⟩
  | .hbm, ⟨61, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16, .f32⟩
  | .local _ .vmem, ⟨8, _⟩ => ⟨S16x32, .f32⟩
  | .local _ .vmem, ⟨9, _⟩ => ⟨S32, .f32⟩
  | .local _ .vmem, ⟨10, _⟩ => ⟨S10000x32, .f32⟩
  | .local _ .vmem, ⟨11, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst : Ref sig .tc := ⟨.hbm, 14, rfl⟩
abbrev main_call0_v7 : Ref sig .tc := ⟨.hbm, 15, rfl⟩
abbrev main_call0_v8 : Ref sig .tc := ⟨.hbm, 16, rfl⟩
abbrev main_call0_cst_0 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst_1 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst_2 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_c : Ref sig .tc := ⟨.hbm, 34, rfl⟩
abbrev main_call0_v21 : Ref sig .tc := ⟨.hbm, 35, rfl⟩
abbrev main_call0_v22 : Ref sig .tc := ⟨.hbm, 36, rfl⟩
abbrev main_call0_c_3 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_c_4 : Ref sig .tc := ⟨.hbm, 44, rfl⟩
abbrev main_call0_v29 : Ref sig .tc := ⟨.hbm, 45, rfl⟩
abbrev main_call0_v30 : Ref sig .tc := ⟨.hbm, 46, rfl⟩
abbrev main_call0_c_5 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_cst_6 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_v0 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bitsLt_bf16_f32 : FTy.bits .bf16 < FTy.bits .f32
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  inb_S10000x64_S10000x64_0_0 : ∀ a, (![0, 0] : Fin 2 → Nat) a + S10000x64.size a ≤ S10000x64.size a
  h_S10000x64 : 0 < S10000x64.numel
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16_S16_0 : ∀ a, (![0] : Fin 1 → Nat) a + S16.size a ≤ S16.size a
  h_S16 : 0 < S16.numel
  shapeCasts_S16_S1x16 : S16.ShapeCasts S1x16
  broadcasts_S1x16_S10000x16 : S1x16.Broadcasts S10000x16
  inb_S16x32_S16x32_0_0 : ∀ a, (![0, 0] : Fin 2 → Nat) a + S16x32.size a ≤ S16x32.size a
  h_S16x32 : 0 < S16x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S3300000x1_S3300000_n_0_0_1_wf : ScatterDims.WF S100000 S3300000x1 S3300000 [] [0] [0] 1
  gather_S100000x16_S3300000x1_S3300000x16_1_0_n_n_0_1_116_wf : GatherDims.WF S100000x16 S3300000x1 S3300000x16 [1] [0] [] [0] [] 1 ![1, 16]
  gather_S100000_S3300000x1_S3300000_n_0_n_n_0_1_1_wf : GatherDims.WF S100000 S3300000x1 S3300000 [] [0] [] [0] [] 1 ![1]
  scatter_S100000x16_S3300000x1_S3300000x16_1_0_0_1_wf : ScatterDims.WF S100000x16 S3300000x1 S3300000x16 [1] [0] [0] 1
  dot_S10000x64_S64x16_S10000x16_1_0_0_1_n_n_wf : DotDims.WF S10000x64 S64x16 S10000x16 [1] [0] [0] [1] [] []
  dot_S10000x16_S16x32_S10000x32_1_0_0_1_n_n_wf : DotDims.WF S10000x16 S16x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v42) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S3200000 : Shape := ⟨1, ![3200000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x32 : Shape := ⟨2, ![100000, 32]⟩
abbrev S1x32 : Shape := ⟨2, ![1, 32]⟩

abbrev nBuf : Space → Nat
  | .hbm => 76
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S3200000, .f32⟩
  | .hbm, ⟨3, _⟩ => ⟨S64x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x32, .f32⟩
  | .hbm, ⟨73, _⟩ => ⟨S1x32, .f32⟩
  | .hbm, ⟨74, _⟩ => ⟨S100000x32, .f32⟩
  | .hbm, ⟨75, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x16_S100000x16_1_0_0_1_n_n_wf : DotDims.WF S100000x64 S64x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x32_S100000x32_1_0_0_1_n_n_wf : DotDims.WF S100000x16 S16x32 S100000x32 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.KernelRun.lean ====
/-
  The idealized kernel's run, with every buffer named.

  The program is four stretches in a row: host operations, the first matrix product tiled over ten blocks of rows,
  host operations (the normalisation, the gather of source rows, the messages and their scatter-add), and the
  output layer tiled the same way.  Every weakly fair execution terminates without a fault, and afterwards each
  unscoped buffer of the TensorCore holds what that chain of stretches leaves in it: the launch contents pushed
  through the first stretch, the first region's write-backs, the second stretch, the second region's write-backs.
  The generated frame keeps from this only that the argument arrays end unchanged; here the statement is kept
  whole, so that the result array can be read off it.
-/
import proofs.«129896_j72825465471158_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each unscoped buffer at the
    contents the four stretches leave in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array after the run is what the second region's write-backs leave of its output window. -/
theorem W4_result (c : Dev nD) :
    W4 m ρ c (Proc.devRef .tc main_v0) = (dat1 (V3 m ρ) c).arrAt 4 cfg1.N :=
  W4_arr m ρ c 4

end Cert.KernelIdeal.Whole

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«129896_j72825465471158_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.LibDotBlocks.lean ====
/-
  A matrix product computed on blocks of its operands is the whole product there.

  At the ideal values — floats extended reals, every operation exact — a `tpu.matmul` into the zero
  accumulator and the host's `dot_general`, both with the plain dimension numbers "rows × contraction
  times contraction × columns", are the same sum over the contraction index.  So a block of rows of the
  left operand times a block of columns of the right operand, multiplied on the matrix unit, gives at its
  local index (p, q) the whole product's entry at (r, c), as soon as row p of the left block is row r of
  the whole left operand and column q of the right block is column c of the whole right operand.  The
  contraction is not blocked; no finiteness is used: both sides are one and the same sum.
-/
import proofs.«129896_j72825465471158_2_alg».proof.Proof.LibRowBlocks

noncomputable section

namespace Cert.Lib.DotBlocks

open Idealize.ShloMosaic Idealize.ShloMosaic.ValueIdx Cert.Lib.PlainDot Cert.Lib.RowBlocks

variable {M K N : Nat}

/-- A block of B rows of the left operand times a block of D columns of the right operand, into the zero
    accumulator: its entry at the local index (p, q) is the whole product's entry at (r, c), when row p of
    the left block is row r of the whole left operand and column q of the right block is column c of the
    whole right operand (the operands' float formats may differ between the blocks and the whole: at the
    ideal values every format is the extended reals). -/
theorem matmul_block_eq_dotGeneral {B D : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, D]⟩ φ₂) (p : Fin B) (q : Fin D) (r : Fin M) (c : Fin N)
    (hx : ∀ k : Fin K, (xb (ix2 p k) : EReal) = x (ix2 r k)) (hw : ∀ k : Fin K, (wb (ix2 k q) : EReal) = w (ix2 k c)) :
    matmul (DotDims.plain B K D) prec xb wb (constant (F := Ideal) ⟨2, ![B, D]⟩ .f32 0x00000000#32) (ix2 p q)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.DotBlocks

end
-- ==== Proof.Region0.lean ====
/-
  The first region's output array: the whole matrix product.

  The first region runs over ten grid points.  Point t stages rows 10000·t … 10000·t + 9999 of the feature matrix
  and the whole weight matrix, multiplies them on the matrix unit into a zero accumulator, and writes the product
  back as rows 10000·t … 10000·t + 9999 of the output.  At the ideal values the block's entry at local row p and
  column q is the sum over k of  X[10000·t + p, k] · W[k, q] — the entry at row 10000·t + p of the whole product
  X · W —, the ten blocks of rows tile the output, so after the region the output array is the whole product.
-/
import proofs.«129896_j72825465471158_2_alg».proof.Proof.Gen.KernelIdeal.Frame
import proofs.«129896_j72825465471158_2_alg».proof.Proof.LibDotBlocks
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The whole product X · W of the feature matrix and the first layer's weights. -/
def product0 (X : S100000x64.Idx → Elt Ideal .f32) (W : S64x16.Idx → Elt Ideal .f32) : S100000x16.Idx → Elt Ideal .f32 :=
  Host.dotGeneral (F := Ideal) (φ₁ := .f32) (φ₂ := .f32) (DotDims.plain 100000 64 16) none X W

theorem zeros2 : (![0, 0] : Fin 2 → Nat) = fun _ => 0 := funext fun a => by fin_cases a <;> rfl

/-- The block product at local (p, q) is the whole product at the array index i, when the block's row p is row
    i 0 of the whole left operand, column q is column i 1, and the block's right operand is the whole one. -/
theorem block_product0 (x0 : Vec Ideal S10000x64 .f32) (x1 : Vec Ideal S64x16 .f32)
    (X : S100000x64.Idx → Elt Ideal .f32) (W : S64x16.Idx → Elt Ideal .f32)
    (p : Fin 10000) (q : Fin 16) (i : S100000x16.Idx)
    (hx : ∀ k : Fin 64, x0 (ix2 p k) = X (ix2 (i 0) k)) (hw : ∀ k : Fin 64, x1 (ix2 k q) = W (ix2 k (i 1))) :
    k0_pay1 (F := Ideal) x0 x1 (ix2 p q) = product0 X W i := by
  rw [eq_ix2 i]
  unfold k0_pay1 product0
  exact Cert.Lib.DotBlocks.matmul_block_eq_dotGeneral (M := 100000) (K := 64) (N := 16) (ψ₁ := .f32) (ψ₂ := .f32) none none
    X W _ _ p q (i 0) (i 1) hx hw

section
variable (V : (c : Dev nD) → (b : Ref sig .tc) → Buf (Elt Ideal) ((c : Thread nD τ).loc b))

/-- The printed block maps over the grid: the row blocks of the input and of the output move together, every
    other block coordinate is zero, and the output's row block stays below ten. -/
theorem block_maps0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem block_onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product of the argument arrays as the region finds them. -/
theorem flushed0_eq (c : Dev nD) (t : Fin cfg0.N) :
    (dat0 V c).flushed 2 t = ((cfg0.win 2).blk t).view.read (Elt Ideal) (product0 (V c main_arg0) (V c main_arg3)) := by
  show (cfg0.win 2).cut (grid0.coords t) ((dat0 V c).after 2 t) = _
  rw [after0_2]
  unfold out0_2
  rw [View.canon_unit_zero zeros2]
  simp only [View.ld_unit_zero (S := S10000x64) zeros2, View.ld_unit_zero (S := S64x16) zeros2]
  obtain ⟨e0, e1, e2, e3, e4, e5⟩ := block_maps0 t
  funext y
  show k0_pay1 (F := Ideal) (iblk0 V c 0 t) (iblk0 V c 1 t) y
    = product0 (V c main_arg0) (V c main_arg3) (((cfg0.win 2).blk t).view.emb y)
  refine (congrArg (k0_pay1 (F := Ideal) (iblk0 V c 0 t) (iblk0 V c 1 t)) (eq_ix2 y)).trans ?_
  refine block_product0 (iblk0 V c 0 t) (iblk0 V c 1 t) (V c main_arg0) (V c main_arg3) (y 0) (y 1)
    (((cfg0.win 2).blk t).view.emb y) (fun k => ?_) (fun k => ?_)
  · show V c main_arg0 (((cfg0.win 0).blk t).view.emb (ix2 (y 0) k)) = _
    refine congrArg (V c main_arg0) (funext fun a => Fin.ext ?_)
    match a with
    | ⟨0, _⟩ =>
      show win0_0.index t (0 : Fin 2) * 10000 + 1 * (y 0).val = win0_2.index t (0 : Fin 2) * 10000 + 1 * (y 0).val
      omega
    | ⟨1, _⟩ =>
      show win0_0.index t (1 : Fin 2) * 64 + 1 * k.val = k.val
      omega
  · show V c main_arg3 (((cfg0.win 1).blk t).view.emb (ix2 k (y 1))) = _
    refine congrArg (V c main_arg3) (funext fun a => Fin.ext ?_)
    match a with
    | ⟨0, _⟩ =>
      show win0_1.index t (0 : Fin 2) * 64 + 1 * k.val = k.val
      omega
    | ⟨1, _⟩ =>
      show win0_1.index t (1 : Fin 2) * 16 + 1 * (y 1).val = win0_2.index t (1 : Fin 2) * 16 + 1 * (y 1).val
      omega

/-- An index of the output array is in point t's block iff each coordinate is in the block's range on its axis. -/
theorem mem_block0 (t : Fin cfg0.N) (i : S100000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_call0_v16).slice (win0_2.rect t)).set ↔ _
  rw [View.set_slice_whole, Rect.mem_set_unit]
  exact Iff.rfl

/-- The ten blocks of rows tile the output: row r lies in the block of the point whose row block is r / 10000. -/
theorem covered0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := block_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 16 ≤ (i 1).val ∧ (i 1).val < win0_2.index t (1 : Fin 2) * 16 + 16
    omega

/-- After the region its output array is the whole product of the two argument arrays as the region finds them. -/
theorem final0 (c : Dev nD) : (dat0 V c).arrAt 2 cfg0.N = product0 (V c main_arg0) (V c main_arg3) :=
  (dat0 V c).arrAt_eq_of_cover 2 _ (fun t _ => flushed0_eq V c t) covered0

end

end Cert.KernelIdeal.Whole

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.Region1.lean ====
/-
  The second region's output array: the output layer of the whole aggregate.

  The second region runs over ten grid points.  Point t stages rows 10000·t … 10000·t + 9999 of the aggregated
  messages together with the whole bias b₁, the whole weight matrix W and the whole bias b₂, and writes back the
  same rows of the result: entry (p, q) of the block is
      Σ_k max (A[10000·t + p, k] + b₁[k]) 0 · W[k, q] + b₂[q],
  the matrix product taken on the matrix unit into a zero accumulator, the changes of float format around it the
  identity at the ideal values.  That is entry (10000·t + p, q) of the output layer applied to the whole
  aggregate; the ten blocks of rows tile the result, so after the region the result array is that layer.
-/
import proofs.«129896_j72825465471158_2_alg».proof.Proof.Gen.KernelIdeal.Frame
import proofs.«129896_j72825465471158_2_alg».proof.Proof.LibPlainDot
import proofs.«129896_j72825465471158_2_alg».proof.Proof.LibRows
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The output layer of a whole aggregate A, entry by entry:  Σ_k max (A[r, k] + b₁[k]) 0 · W[k, q] + b₂[q]. -/
def layer1 (A : FVec Ideal S100000x16 .f32) (b1 : FVec Ideal S16 .f32) (W : FVec Ideal S16x32 .f32)
    (b2 : FVec Ideal S32 .f32) : FVec Ideal S100000x32 .f32 :=
  fun i => (∑ k : Fin 16, max (A (ix2 (i 0) k) + b1 (ix1 k)) (Ideal.ofBits .f32 0x00000000#32) * W (ix2 k (i 1)))
    + b2 (ix1 (i 1))

theorem zeros2' : (![0, 0] : Fin 2 → Nat) = fun _ => 0 := funext fun a => by fin_cases a <;> rfl
theorem zeros1' : (![0] : Fin 1 → Nat) = fun _ => 0 := funext fun a => by fin_cases a <;> rfl

/-- The body's stored value at local (p, q), from its four loaded blocks. -/
theorem block_value1 (v0 : Vec Ideal S10000x16 .f32) (v2 : Vec Ideal S16 .f32) (v9 : Vec Ideal S16x32 .f32)
    (v12 : Vec Ideal S32 .f32) (p : Fin 10000) (q : Fin 32) :
    k1_pay1 (F := Ideal) v0 v2 v9 v12 (ix2 p q)
      = (∑ k : Fin 16, max (v0 (ix2 p k) + v2 (ix1 k)) (Ideal.ofBits .f32 0x00000000#32) * v9 (ix2 k q)) + v12 (ix1 q) := by
  unfold k1_pay1
  rw [addf_apply, Cert.Lib.Rows.broadcastTo_row_apply, Cert.Lib.Rows.shapeCast_vec_row_apply]
  refine congrArg (· + v12 (ix1 q)) ?_
  refine (Cert.Lib.PlainDot.matmul_plain_zero_apply (M := 10000) (K := 16) (N := 32) none _ _ p q).trans ?_
  refine Finset.sum_congr rfl fun k _ => ?_
  rw [truncf_apply, truncf_apply, maximumf_apply, addf_apply, shapeCast_self, Cert.Lib.Rows.broadcastTo_row_apply,
    Cert.Lib.Rows.shapeCast_vec_row_apply, broadcast_apply]
  rfl

/-- The block's entry at local (p, q) is the layer's entry at the array index i, when the block's row p is row
    i 0 of the whole aggregate, column q is column i 1, and the other three blocks are the whole operands. -/
theorem block_layer1 (v0 : Vec Ideal S10000x16 .f32) (v2 : Vec Ideal S16 .f32) (v9 : Vec Ideal S16x32 .f32)
    (v12 : Vec Ideal S32 .f32) (A : FVec Ideal S100000x16 .f32) (b1 : FVec Ideal S16 .f32) (W : FVec Ideal S16x32 .f32)
    (b2 : FVec Ideal S32 .f32) (p : Fin 10000) (q : Fin 32) (i : S100000x32.Idx)
    (h0 : ∀ k : Fin 16, v0 (ix2 p k) = A (ix2 (i 0) k)) (h1 : ∀ k : Fin 16, v2 (ix1 k) = b1 (ix1 k))
    (h2 : ∀ k : Fin 16, v9 (ix2 k q) = W (ix2 k (i 1))) (h3 : v12 (ix1 q) = b2 (ix1 (i 1))) :
    k1_pay1 (F := Ideal) v0 v2 v9 v12 (ix2 p q) = layer1 A b1 W b2 i := by
  rw [block_value1, h3]
  unfold layer1
  refine congrArg (· + b2 (ix1 (i 1))) (Finset.sum_congr rfl fun k _ => ?_)
  rw [h0 k, h1 k, h2 k]

section
variable (V : (c : Dev nD) → (b : Ref sig .tc) → Buf (Elt Ideal) ((c : Thread nD τ).loc b))

/-- The printed block maps over the grid: the row blocks of the aggregate and of the result move together, every
    other block coordinate is zero, and the result's row block stays below ten. -/
theorem block_maps1 : ∀ t : Fin cfg1.N, win1_0.index t (0 : Fin 2) = win1_4.index t (0 : Fin 2)
    ∧ win1_0.index t (1 : Fin 2) = 0
    ∧ win1_1.index t (0 : Fin 1) = 0
    ∧ win1_2.index t (0 : Fin 2) = 0
    ∧ win1_2.index t (1 : Fin 2) = 0
    ∧ win1_3.index t (0 : Fin 1) = 0
    ∧ win1_4.index t (1 : Fin 2) = 0
    ∧ win1_4.index t (0 : Fin 2) ≤ 9 :=
  (by decide +kernel : ∀ t : Fin grid1.N, _)

/-- Every row block of the result is some point's. -/
theorem block_onto1 : ∀ q0 : Fin 10, ∃ t : Fin cfg1.N, win1_4.index t = ![q0.val, 0] :=
  (by decide +kernel : ∀ q0 : Fin 10, ∃ t : Fin grid1.N, win1_4.index t = ![q0.val, 0])

/-- What point t writes back is block t of the output layer of the arrays as the region finds them. -/
theorem flushed1_eq (c : Dev nD) (t : Fin cfg1.N) :
    (dat1 V c).flushed 4 t = ((cfg1.win 4).blk t).view.read (Elt Ideal)
      (layer1 (V c main_call0_v42) (V c main_arg4) (V c main_arg5) (V c main_arg6)) := by
  show (cfg1.win 4).cut (grid1.coords t) ((dat1 V c).after 4 t) = _
  rw [after1_4]
  unfold out1_4
  rw [View.canon_unit_zero zeros2']
  simp only [View.ld_unit_zero (S := S10000x16) zeros2', View.ld_unit_zero (S := S16x32) zeros2',
    View.ld_unit_zero (S := S16) zeros1', View.ld_unit_zero (S := S32) zeros1']
  obtain ⟨e0, e1, e2, e3, e4, e5, e6, e7⟩ := block_maps1 t
  funext y
  show k1_pay1 (F := Ideal) (iblk1 V c 0 t) (iblk1 V c 1 t) (iblk1 V c 2 t) (iblk1 V c 3 t) y
    = layer1 (V c main_call0_v42) (V c main_arg4) (V c main_arg5) (V c main_arg6) (((cfg1.win 4).blk t).view.emb y)
  refine (congrArg (k1_pay1 (F := Ideal) (iblk1 V c 0 t) (iblk1 V c 1 t) (iblk1 V c 2 t) (iblk1 V c 3 t)) (eq_ix2 y)).trans ?_
  refine block_layer1 (iblk1 V c 0 t) (iblk1 V c 1 t) (iblk1 V c 2 t) (iblk1 V c 3 t)
    (V c main_call0_v42) (V c main_arg4) (V c main_arg5) (V c main_arg6) (y 0) (y 1)
    (((cfg1.win 4).blk t).view.emb y) (fun k => ?_) (fun k => ?_) (fun k => ?_) ?_
  · show V c main_call0_v42 (((cfg1.win 0).blk t).view.emb (ix2 (y 0) k)) = _
    refine congrArg (V c main_call0_v42) (funext fun a => Fin.ext ?_)
    match a with
    | ⟨0, _⟩ =>
      show win1_0.index t (0 : Fin 2) * 10000 + 1 * (y 0).val = win1_4.index t (0 : Fin 2) * 10000 + 1 * (y 0).val
      omega
    | ⟨1, _⟩ =>
      show win1_0.index t (1 : Fin 2) * 16 + 1 * k.val = k.val
      omega
  · show V c main_arg4 (((cfg1.win 1).blk t).view.emb (ix1 k)) = _
    refine congrArg (V c main_arg4) (funext fun a => Fin.ext ?_)
    match a with
    | ⟨0, _⟩ =>
      show win1_1.index t (0 : Fin 1) * 16 + 1 * k.val = k.val
      omega
  · show V c main_arg5 (((cfg1.win 2).blk t).view.emb (ix2 k (y 1))) = _
    refine congrArg (V c main_arg5) (funext fun a => Fin.ext ?_)
    match a with
    | ⟨0, _⟩ =>
      show win1_2.index t (0 : Fin 2) * 16 + 1 * k.val = k.val
      omega
    | ⟨1, _⟩ =>
      show win1_2.index t (1 : Fin 2) * 32 + 1 * (y 1).val = win1_4.index t (1 : Fin 2) * 32 + 1 * (y 1).val
      omega
  · show V c main_arg6 (((cfg1.win 3).blk t).view.emb (ix1 (y 1))) = _
    refine congrArg (V c main_arg6) (funext fun a => Fin.ext ?_)
    match a with
    | ⟨0, _⟩ =>
      show win1_3.index t (0 : Fin 1) * 32 + 1 * (y 1).val = win1_4.index t (1 : Fin 2) * 32 + 1 * (y 1).val
      omega

/-- An index of the result array is in point t's block iff each coordinate is in the block's range on its axis. -/
theorem mem_block1 (t : Fin cfg1.N) (i : S100000x32.Idx) :
    i ∈ ((cfg1.win 4).blk t).view.set ↔ ∀ a : Fin 2, win1_4.index t a * S10000x32.size a ≤ (i a).val
      ∧ (i a).val < win1_4.index t a * S10000x32.size a + S10000x32.size a := by
  show i ∈ ((View.whole main_v0).slice (win1_4.rect t)).set ↔ _
  rw [View.set_slice_whole, Rect.mem_set_unit]
  exact Iff.rfl

/-- The ten blocks of rows tile the result: row r lies in the block of the point whose row block is r / 10000. -/
theorem covered1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := block_onto1 ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_block1]
  intro a
  match a with
  | ⟨0, _⟩ =>
    show win1_4.index t (0 : Fin 2) * 10000 ≤ (i 0).val ∧ (i 0).val < win1_4.index t (0 : Fin 2) * 10000 + 10000
    omega
  | ⟨1, _⟩ =>
    show win1_4.index t (1 : Fin 2) * 32 ≤ (i 1).val ∧ (i 1).val < win1_4.index t (1 : Fin 2) * 32 + 32
    omega

/-- After the region the result array is the output layer of the arrays as the region finds them. -/
theorem final1 (c : Dev nD) : (dat1 V c).arrAt 4 cfg1.N
    = layer1 (V c main_call0_v42) (V c main_arg4) (V c main_arg5) (V c main_arg6) :=
  (dat1 V c).arrAt_eq_of_cover 4 _ (fun t _ => flushed1_eq V c t) covered1

end

end Cert.KernelIdeal.Whole

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.Stretch.lean ====
/-
  The host stretch between the two regions, read back.

  Between the regions the host scales every row of the first region's product by that row's dinv, gathers the
  scaled rows at the (wrapped) source indices, multiplies by  w · dinv[dst]  spread over the sixteen lanes, and
  scatter-adds the messages into a zero array at the destination indices: the aggregate the second region reads.
  The stretch reads five buffers it does not write — the first region's output, and dinv, the edge weights with the
  self loops' ones, the source indices and the destination indices.  The stretch is long, so it is read in four
  pieces one after the other (scale; gather; edge scale and message; scatter-add), each piece over an arbitrary
  valuation: what a piece writes is named as a function of what it reads, and what it does not write it keeps.
-/
import proofs.«129896_j72825465471158_2_alg».proof.Proof.Region0
import proofs.«129896_j72825465471158_2_alg».proof.Proof.LibAfterAppend
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

/-- A possibly negative index wrapped once around the table's 100000 rows, as `x[i]` does before it gathers. -/
def wrap (r : IVec S3300000 32) : IVec S3300000 32 :=
  select (cmpi .slt r (broadcastInDim S3300000 ![] bcast_S_S3300000 (constantI S_ 32 0#32)))
    (addi r (broadcastInDim S3300000 ![] bcast_S_S3300000 (constantI S_ 32 100000#32))) r

/-- The table with every row scaled by its own dinv. -/
def scaled (H : FVec Ideal S100000x16 .f32) (d : FVec Ideal S100000 .f32) : FVec Ideal S100000x16 .bf16 :=
  truncf .bf16 (mulf H (broadcastInDim S100000x16 ![0, 1] bcast_S100000x1_S100000x16_0_1
    (broadcastInDim S100000x1 ![0] bcast_S100000_S100000x1_0 d))) bitsLt_bf16_f32

/-- Rows of a table gathered at the wrapped source indices. -/
def gatheredK (T : FVec Ideal S100000x16 .bf16) (src : IVec S3300000 32) : FVec Ideal S3300000x16 .f32 :=
  extf .f32 (Host.gather gather_S100000x16_S3300000x1_S3300000x16_1_0_n_n_0_1_116 T
    (broadcastInDim S3300000x1 ![0] bcast_S3300000_S3300000x1_0 (wrap src))) bitsLt_bf16_f32

/-- The edge's scale  w · dinv[dst]  spread over the sixteen lanes. -/
def edgeScale (d : FVec Ideal S100000 .f32) (wt : FVec Ideal S3300000 .f32) (dst : IVec S3300000 32) :
    FVec Ideal S3300000x16 .f32 :=
  broadcastInDim S3300000x16 ![0, 1] bcast_S3300000x1_S3300000x16_0_1
    (broadcastInDim S3300000x1 ![0] bcast_S3300000_S3300000x1_0
      (mulf wt (Host.gather gather_S100000_S3300000x1_S3300000_n_0_n_n_0_1_1 d
        (broadcastInDim S3300000x1 ![0] bcast_S3300000_S3300000x1_0 (wrap dst)))))

/-- Messages scatter-added into a zero array at the destinations. -/
def scattered (dst : IVec S3300000 32) (msg : FVec Ideal S3300000x16 .f32) : FVec Ideal S100000x16 .f32 :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 dst) msg

/-- The kernel's aggregate as ONE function of the five buffers the stretch reads. -/
def aggregateK (H : FVec Ideal S100000x16 .f32) (d : FVec Ideal S100000 .f32) (wt : FVec Ideal S3300000 .f32)
    (src dst : IVec S3300000 32) : FVec Ideal S100000x16 .f32 :=
  scattered dst (mulf (gatheredK (scaled H d) src) (edgeScale d wt dst))

/-! The four pieces of the stretch. -/

abbrev piece1 : List (HloOp τ sig (Elt Ideal)) := (hostOps1 (F := Ideal)).take 4
abbrev piece2 : List (HloOp τ sig (Elt Ideal)) := ((hostOps1 (F := Ideal)).drop 4).take 10
abbrev piece3 : List (HloOp τ sig (Elt Ideal)) := ((hostOps1 (F := Ideal)).drop 14).take 13
abbrev piece4 : List (HloOp τ sig (Elt Ideal)) := (hostOps1 (F := Ideal)).drop 27

theorem pieces : (hostOps1 (F := Ideal)) = piece1 ++ (piece2 ++ (piece3 ++ piece4)) := rfl

/-- The contents after the whole stretch are the contents after its four pieces in turn. -/
theorem after_pieces (G : Valuation τ sig (Elt Ideal)) :
    after (hostOps1 (F := Ideal)) G = after piece4 (after piece3 (after piece2 (after piece1 G))) := by
  rw [pieces, Cert.LibAfterAppend.after_append, Cert.LibAfterAppend.after_append, Cert.LibAfterAppend.after_append]

section Pieces
variable (G : Valuation τ sig (Elt Ideal))

set_option maxHeartbeats 4000000 in
theorem piece1_scaled : after piece1 G (Proc.devRef .tc main_call0_v20)
    = scaled (G (Proc.devRef .tc main_call0_v16)) (G (Proc.devRef .tc main_call0_v15)) := by
  dsimp only [piece1, hostOps1, List.take_succ_cons, List.take_zero]
  after_results_simp <;> rfl
set_option maxHeartbeats 4000000 in
theorem piece1_v3 : after piece1 G (Proc.devRef .tc main_call0_v3) = G (Proc.devRef .tc main_call0_v3) := by
  dsimp only [piece1, hostOps1, List.take_succ_cons, List.take_zero]
  after_results_simp <;> rfl
set_option maxHeartbeats 4000000 in
theorem piece1_v6 : after piece1 G (Proc.devRef .tc main_call0_v6) = G (Proc.devRef .tc main_call0_v6) := by
  dsimp only [piece1, hostOps1, List.take_succ_cons, List.take_zero]
  after_results_simp <;> rfl
set_option maxHeartbeats 4000000 in
theorem piece1_v8 : after piece1 G (Proc.devRef .tc main_call0_v8) = G (Proc.devRef .tc main_call0_v8) := by
  dsimp only [piece1, hostOps1, List.take_succ_cons, List.take_zero]
  after_results_simp <;> rfl
set_option maxHeartbeats 4000000 in
theorem piece1_v15 : after piece1 G (Proc.devRef .tc main_call0_v15) = G (Proc.devRef .tc main_call0_v15) := by
  dsimp only [piece1, hostOps1, List.take_succ_cons, List.take_zero]
  after_results_simp <;> rfl

set_option maxHeartbeats 4000000 in
theorem piece2_gathered : after piece2 G (Proc.devRef .tc main_call0_v28)
    = gatheredK (G (Proc.devRef .tc main_call0_v20)) (G (Proc.devRef .tc main_call0_v3)) := by
  simp only [piece2, hostOps1, List.take, List.drop]
  after_results_simp <;> rfl
set_option maxHeartbeats 4000000 in
theorem piece2_v6 : after piece2 G (Proc.devRef .tc main_call0_v6) = G (Proc.devRef .tc main_call0_v6) := by
  simp only [piece2, hostOps1, List.take, List.drop]
  after_results_simp <;> rfl
set_option maxHeartbeats 4000000 in
theorem piece2_v8 : after piece2 G (Proc.devRef .tc main_call0_v8) = G (Proc.devRef .tc main_call0_v8) := by
  simp only [piece2, hostOps1, List.take, List.drop]
  after_results_simp <;> rfl
set_option maxHeartbeats 4000000 in
theorem piece2_v15 : after piece2 G (Proc.devRef .tc main_call0_v15) = G (Proc.devRef .tc main_call0_v15) := by
  simp only [piece2, hostOps1, List.take, List.drop]
  after_results_simp <;> rfl

set_option maxHeartbeats 4000000 in
theorem piece3_messages : after piece3 G (Proc.devRef .tc main_call0_v39)
    = mulf (G (Proc.devRef .tc main_call0_v28) : FVec Ideal S3300000x16 .f32)
        (edgeScale (G (Proc.devRef .tc main_call0_v15)) (G (Proc.devRef .tc main_call0_v8)) (G (Proc.devRef .tc main_call0_v6))) := by
  simp only [piece3, hostOps1, List.take, List.drop]
  after_results_simp <;> rfl
set_option maxHeartbeats 4000000 in
theorem piece3_v6 : after piece3 G (Proc.devRef .tc main_call0_v6) = G (Proc.devRef .tc main_call0_v6) := by
  simp only [piece3, hostOps1, List.take, List.drop]
  after_results_simp <;> rfl

set_option maxHeartbeats 4000000 in
theorem piece4_scattered : after piece4 G (Proc.devRef .tc main_call0_v42)
    = scattered (G (Proc.devRef .tc main_call0_v6)) (G (Proc.devRef .tc main_call0_v39)) := by
  simp only [piece4, hostOps1, List.drop]
  after_results_simp <;> rfl

/-- After the whole stretch the aggregate's buffer holds the aggregate of the five buffers the stretch reads. -/
theorem stretch_aggregate : after (hostOps1 (F := Ideal)) G (Proc.devRef .tc main_call0_v42)
    = aggregateK (G (Proc.devRef .tc main_call0_v16)) (G (Proc.devRef .tc main_call0_v15))
        (G (Proc.devRef .tc main_call0_v8)) (G (Proc.devRef .tc main_call0_v3)) (G (Proc.devRef .tc main_call0_v6)) := by
  rw [after_pieces, piece4_scattered, piece3_messages, piece3_v6, piece2_gathered, piece2_v6, piece2_v8, piece2_v15,
    piece1_scaled, piece1_v3, piece1_v6, piece1_v8, piece1_v15]
  rfl

end Pieces

end Cert.KernelIdeal.Whole

end
-- ==== Proof.LibRowGather.lean ====
/-
  Gathering whole rows of a table.  For a table `x : [N, C]` and a column of start indices `idx : [E, 1]`,
  the gather with offset axis 1, collapsed axis 0, start-index map [0], index-vector axis 1 and slices of one
  row ([1, C]) reads, at result index (e, j), the table at row `idx[e, 0]` — the index word read signed and
  clamped into [0, N - 1], as every gather clamps its start indices — and column j.  This is what `x[idx]`
  of a two-axis table at a flat integer array lowers to.
-/
import Idealize.ShloMosaic.Lib.ValueIdx

noncomputable section

namespace Idealize.ShloMosaic.RowGather

open Idealize.ShloMosaic Idealize.ShloMosaic.ValueIdx

variable {α : Type}

/-- The dimension numbers of a row gather from a table [N, C] at start indices [E, 1] into [E, C]; their
    conditions `wf` are decided on a program's literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word names in a table of `N` rows: the word read signed, clamped into [0, N - 1]. -/
def clampRow (N : Nat) (hN : 0 < N) {w : Nat} (v : BitVec w) : Fin N :=
  ⟨min v.toInt.toNat (N - 1), by omega⟩

/-- THE ROW GATHER READ AT (e, j): the table at the clamped row `idx[e, 0]` and column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j)
      = x (ix2 (clampRow N hN (idx (ix2 e (0 : Fin 1)))) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    unfold GatherDims.start
    rw [dif_neg (show (1 : Fin 2) ∉ (rowDims N E C wf).startIndexMap from
      fun h => absurd (show (1 : Nat) = 0 from congrArg Fin.val (List.mem_singleton.mp h)) Nat.one_ne_zero)]
    unfold GatherDims.offCoord
    rw [dif_pos (show (1 : Fin 2) ∈ (rowDims N E C wf).sKept from (GatherDims.mem_sKept _ _).mpr
      ⟨fun h => absurd (show (1 : Nat) = 0 from congrArg Fin.val (List.mem_singleton.mp h)) Nat.one_ne_zero, List.not_mem_nil⟩)]
    simp only [Nat.zero_add]
    rfl

end Idealize.ShloMosaic.RowGather

end
-- ==== Proof.LibVecGather.lean ====
/-
  Gathering single entries of a vector.  For a vector `x : [N]` and a column of start indices `idx : [E, 1]`,
  the gather with no offset axis, collapsed axis 0, start-index map [0], index-vector axis 1 and slices of one
  entry ([1]) reads, at result index e, the vector at `idx[e, 0]` — the index word read signed and clamped into
  [0, N - 1], as every gather clamps its start indices.  This is what `x[idx]` of a one-axis array at a flat
  integer array lowers to; the clamped entry is the same `clampRow` a row gather of an [N, C] table takes.
-/
import proofs.«129896_j72825465471158_2_alg».proof.Proof.LibRowGather

noncomputable section

namespace Idealize.ShloMosaic.VecGather

open Idealize.ShloMosaic Idealize.ShloMosaic.ValueIdx Idealize.ShloMosaic.RowGather

variable {α : Type}

/-- The dimension numbers of an entry gather from a vector [N] at start indices [E, 1] into [E]; their
    conditions `wf` are decided on a program's literal shapes. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the vector at the clamped entry `idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.VecGather

end
-- ==== Proof.LibHostColumns.lean ====
/-
  A per-row value spread over the lanes by the host.  The host turns a vector [a] into the column [a, 1] by a
  broadcast onto axis 0, and spreads the column over b lanes by a broadcast onto axes 0 and 1.  Read at an
  index, the column at (i, 0) is the vector at i, and the spread array at (p, c) is the column at (p, 0): every
  lane of row p sees row p's value.  General facts, for any extents and entry type.
-/
import Idealize.ShloMosaic.Lib.Pipeline.Value
import Idealize.ShloMosaic.Lib.ValueIdx

noncomputable section

namespace Cert.Lib.HostColumns

open Idealize.ShloMosaic Idealize.ShloMosaic.ValueIdx

variable {α : Type}

/-- A vector [a] broadcast onto axis 0 of the column [a, 1] reads, at (i, u), the vector at i. -/
theorem bcast_vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply (![0] : Fin 1 → Fin 2) h x (ix2 i u) (ix1 i) (fun ax => ?_)
  match ax with
  | ⟨0, _⟩ =>
    show i.val = if a = 1 then 0 else i.val
    split
    · have := i.isLt; omega
    · rfl

/-- A column [a, 1] broadcast onto axes 0, 1 of [a, b] reads, at (p, c), the column at row p. -/
theorem bcast_col_lanes_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) (u : Fin 1) :
    broadcastInDim ⟨2, ![a, b]⟩ (![0, 1] : Fin 2 → Fin 2) h v (ix2 p c) = v (ix2 p u) := by
  refine broadcastInDim_apply (![0, 1] : Fin 2 → Fin 2) h v (ix2 p c) (ix2 p u) (fun ax => ?_)
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.HostColumns

end
-- ==== Proof.MsgLaw.lean ====
/-
  One message, two groupings.

  A graph convolution sends along edge e the source row of the transformed features, scaled by the edge's
  normalisation  dinv[src e] · w e · dinv[dst e].  One program scales every row of the feature table by its own
  dinv first, gathers the scaled rows, and multiplies by  w e · dinv[dst e];  the other gathers the unscaled rows
  and multiplies by the whole normalisation, itself gathered entry by entry.  Both gathers clamp the same index
  word to the same row, and the changes of float format in between are the identity at the ideal values, so entry
  (e, j) of either message array is a product of the same four extended reals,
      (H[r, j] · d[r]) · (w e · d[c])   and   H[r, j] · ((d[r] · w e) · d[c]),
  which associativity of the product identifies.  No finiteness is used: the product of extended reals is
  associative as it stands.
-/
import proofs.«129896_j72825465471158_2_alg».proof.Proof.LibVecGather
import proofs.«129896_j72825465471158_2_alg».proof.Proof.LibHostColumns

noncomputable section

namespace Cert.MsgLaw

open Idealize.ShloMosaic Idealize.ShloMosaic.ValueIdx Idealize.ShloMosaic.RowGather Idealize.ShloMosaic.VecGather
open Cert.Lib.HostColumns

/-- The product of extended reals regrouped: (h · a) · (w · b) = h · ((a · w) · b). -/
theorem regroup (h a w b : EReal) : (h * a) * (w * b) = h * ((a * w) * b) := by
  rw [mul_assoc, mul_assoc]

/-- The two message arrays are one: rows of the pre-scaled table gathered and multiplied by  w · dinv[dst],
    against rows of the unscaled table multiplied by  (dinv[src] · w) · dinv[dst]. -/
theorem messages_eq {N E C w : Nat} (hN : 0 < N)
    (wfR : GatherDims.WF ⟨2, ![N, C]⟩ ⟨2, ![E, 1]⟩ ⟨2, ![E, C]⟩ [1] [0] [] [0] [] 1 ![1, C])
    (wfV : GatherDims.WF ⟨1, ![N]⟩ ⟨2, ![E, 1]⟩ ⟨1, ![E]⟩ [] [0] [] [0] [] 1 ![1])
    (hNc : (⟨1, ![N]⟩ : Shape).BroadcastsInDim ⟨2, ![N, 1]⟩ (![0] : Fin 1 → Fin 2))
    (hNl : (⟨2, ![N, 1]⟩ : Shape).BroadcastsInDim ⟨2, ![N, C]⟩ (![0, 1] : Fin 2 → Fin 2))
    (hEc : (⟨1, ![E]⟩ : Shape).BroadcastsInDim ⟨2, ![E, 1]⟩ (![0] : Fin 1 → Fin 2))
    (hEl : (⟨2, ![E, 1]⟩ : Shape).BroadcastsInDim ⟨2, ![E, C]⟩ (![0, 1] : Fin 2 → Fin 2))
    (hlt : FTy.bf16.bits < FTy.f32.bits)
    (H : FVec Ideal ⟨2, ![N, C]⟩ .f32) (d : FVec Ideal ⟨1, ![N]⟩ .f32) (wt : FVec Ideal ⟨1, ![E]⟩ .f32)
    (src dst : IVec ⟨1, ![E]⟩ w) :
    mulf (extf .f32 (Host.gather (rowDims N E C wfR)
            (truncf .bf16 (mulf H (broadcastInDim ⟨2, ![N, C]⟩ ![0, 1] hNl (broadcastInDim ⟨2, ![N, 1]⟩ ![0] hNc d))) hlt)
            (broadcastInDim ⟨2, ![E, 1]⟩ ![0] hEc src)) hlt)
        (broadcastInDim ⟨2, ![E, C]⟩ ![0, 1] hEl (broadcastInDim ⟨2, ![E, 1]⟩ ![0] hEc
          (mulf wt (Host.gather (vecDims N E wfV) d (broadcastInDim ⟨2, ![E, 1]⟩ ![0] hEc dst)))))
      = mulf (Host.gather (rowDims N E C wfR) H (broadcastInDim ⟨2, ![E, 1]⟩ ![0] hEc src))
        (broadcastInDim ⟨2, ![E, C]⟩ ![0, 1] hEl (broadcastInDim ⟨2, ![E, 1]⟩ ![0] hEc
          (mulf (mulf (Host.gather (vecDims N E wfV) d (broadcastInDim ⟨2, ![E, 1]⟩ ![0] hEc src)) wt)
            (Host.gather (vecDims N E wfV) d (broadcastInDim ⟨2, ![E, 1]⟩ ![0] hEc dst))))) := by
  funext j
  obtain ⟨e, c, rfl⟩ : ∃ (e : Fin E) (c : Fin C), j = ix2 e c := ⟨j 0, j 1, eq_ix2 j⟩
  rw [mulf_apply, mulf_apply, extf_apply, gather_rows_apply hN wfR, gather_rows_apply hN wfR, truncf_apply, mulf_apply,
    bcast_col_lanes_apply _ hNl _ c (0 : Fin 1), bcast_vec_col_apply _ hNc,
    bcast_col_lanes_apply _ hEl e c (0 : Fin 1), bcast_col_lanes_apply _ hEl e c (0 : Fin 1),
    bcast_vec_col_apply _ hEc e, bcast_vec_col_apply _ hEc e, bcast_vec_col_apply _ hEc e,
    mulf_apply, mulf_apply, mulf_apply,
    gather_vec_apply hN wfV, gather_vec_apply hN wfV,
    bcast_vec_col_apply _ hEc e, bcast_vec_col_apply _ hEc e]
  exact regroup _ _ _ _

end Cert.MsgLaw

end
-- ==== Proof.RefLayer.lean ====
/-
  The reference's last operations are the output layer of its aggregate.

  After its scatter-add the reference adds the bias b₁ spread down the rows, takes the maximum with zero, multiplies
  by W with one whole `dot_general`, and adds the bias b₂ spread down the rows.  Read at (r, q) that is
      Σ_k max (A[r, k] + b₁[k]) 0 · W[k, q] + b₂[q]
  of its aggregate A: the same entry-by-entry function the second region of the kernel computes block by block.
-/
import proofs.«129896_j72825465471158_2_alg».proof.Proof.Region1
import proofs.«129896_j72825465471158_2_alg».proof.Proof.Gen.ReferenceIdeal.Read

set_option maxRecDepth 16384

noncomputable section

namespace Cert.RefLayer

open Idealize.ShloMosaic Idealize.ShloMosaic.ValueIdx
open Cert.ReferenceIdeal Cert.ReferenceIdeal.Read

/-- The left operand's index of the last product at output index i and contraction position k is (i 0, k). -/
theorem left_index (i : S100000x32.Idx) (k : Fin 16) : lidx_main_v50 i k = ix2 (n0 := 100000) (n1 := 16) (i 0) k :=
  funext fun a => Fin.ext (by
    match a with
    | ⟨0, _⟩ => rfl
    | ⟨1, _⟩ => rfl)

/-- The right operand's index there is (k, i 1). -/
theorem right_index (i : S100000x32.Idx) (k : Fin 16) : ridx_main_v50 i k = ix2 (n0 := 16) (n1 := 32) k (i 1) :=
  funext fun a => Fin.ext (by
    match a with
    | ⟨0, _⟩ => rfl
    | ⟨1, _⟩ => rfl)

/-- The first bias spread down the rows reads, at (r, k), its entry k. -/
theorem bias1_index (r : Fin 100000) (k : Fin 16) : idx_main_v46 (idx_main_v47 (ix2 (n0 := 100000) (n1 := 16) r k)) = ix1 (n := 16) k :=
  funext fun a => Fin.ext (by
    match a with
    | ⟨0, _⟩ => rfl)

/-- The second bias spread down the rows reads, at i, its entry i 1. -/
theorem bias2_index (i : S100000x32.Idx) : idx_main_v51 (idx_main_v52 i) = ix1 (n := 32) (i 1) :=
  funext fun a => Fin.ext (by
    match a with
    | ⟨0, _⟩ => rfl)

/-- The reference's result is the output layer of the reference's aggregate. -/
theorem result_is_layer (x0 : (⟨S100000x64, .f32⟩ : BufTy).Contents (Elt Ideal)) (x1 : (⟨S2x3200000, .i32⟩ : BufTy).Contents (Elt Ideal))
    (x2 : (⟨S3200000, .f32⟩ : BufTy).Contents (Elt Ideal)) (x3 : (⟨S64x16, .f32⟩ : BufTy).Contents (Elt Ideal))
    (x4 : (⟨S16, .f32⟩ : BufTy).Contents (Elt Ideal)) (x5 : (⟨S16x32, .f32⟩ : BufTy).Contents (Elt Ideal))
    (x6 : (⟨S32, .f32⟩ : BufTy).Contents (Elt Ideal)) :
    val_main_v53 (F := Ideal) x0 x1 x2 x3 x4 x5 x6
      = Cert.KernelIdeal.Whole.layer1 (val_main_v45 (F := Ideal) x0 x1 x2 x3) x4 x5 x6 := by
  funext i
  rw [val_main_v53_apply, val_main_v50_apply, val_main_v52_apply, val_main_v51_apply, bias2_index, Ideal.addf_def]
  unfold Cert.KernelIdeal.Whole.layer1
  refine congrArg (· + x6 (ix1 (i 1))) (Finset.sum_congr rfl fun k _ => ?_)
  rw [left_index, right_index, val_main_v49_apply, val_main_v48_apply, val_main_v47_apply, val_main_v46_apply, bias1_index (i 0) k,
    val_main_call1_v0_apply, val_main_call1_cst_apply, Ideal.maximumf_def, Ideal.addf_def, Ideal.ofBits_def]

end Cert.RefLayer

end
-- ==== Proof.KernelValue.lean ====
/-
  The idealized kernel's result as a function of the argument arrays.

  Reading the run back: the result array is the second region's output layer of what that region finds — the
  aggregate left by the host stretch before it, the two biases and the weight matrix.  The aggregate is the
  stretch's function of the first region's whole product X · W and of dinv, the weights, the source and the
  destination indices, which the first stretch computes from the argument arrays alone and which are, term for
  term, the reference's own.  The kernel's messages and the reference's are one array (the message law), so the two
  aggregates are the same scatter-add, and the kernel's result is the reference's result function of the arguments.
-/
import proofs.«129896_j72825465471158_2_alg».proof.Proof.KernelRun
import proofs.«129896_j72825465471158_2_alg».proof.Proof.Region0
import proofs.«129896_j72825465471158_2_alg».proof.Proof.Region1
import proofs.«129896_j72825465471158_2_alg».proof.Proof.Stretch
import proofs.«129896_j72825465471158_2_alg».proof.Proof.MsgLaw
import proofs.«129896_j72825465471158_2_alg».proof.Proof.RefLayer
import proofs.«129896_j72825465471158_2_alg».proof.Proof.Gen.ReferenceIdeal.Read

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read (val_main_v3 val_main_v6 val_main_v8 val_main_v15 val_main_v32 val_main_v42 val_main_v45 val_main_v53)

/-! ## The two aggregates are one -/

/-- The kernel's aggregate of the whole product, the reference's dinv, weights and indices is the reference's. -/
theorem aggregate_eq (x0 : FVec Ideal S100000x64 .f32) (x1 : IVec S2x3200000 32) (x2 : FVec Ideal S3200000 .f32)
    (x3 : FVec Ideal S64x16 .f32) :
    aggregateK (product0 x0 x3) (val_main_v15 (F := Ideal) x1 x2) (val_main_v8 (F := Ideal) x2)
        (val_main_v3 (F := Ideal) x1) (val_main_v6 (F := Ideal) x1)
      = val_main_v45 (F := Ideal) x0 x1 x2 x3 := by
  have hmsg : mulf (gatheredK (scaled (product0 x0 x3) (val_main_v15 (F := Ideal) x1 x2)) (val_main_v3 (F := Ideal) x1))
        (edgeScale (val_main_v15 (F := Ideal) x1 x2) (val_main_v8 (F := Ideal) x2) (val_main_v6 (F := Ideal) x1))
      = val_main_v42 (F := Ideal) x0 x1 x2 x3 :=
    Cert.MsgLaw.messages_eq (N := 100000) (E := 3300000) (C := 16) (w := 32) (by decide)
      gather_S100000x16_S3300000x1_S3300000x16_1_0_n_n_0_1_116.wf gather_S100000_S3300000x1_S3300000_n_0_n_n_0_1_1.wf
      bcast_S100000_S100000x1_0 bcast_S100000x1_S100000x16_0_1 bcast_S3300000_S3300000x1_0 bcast_S3300000x1_S3300000x16_0_1
      bitsLt_bf16_f32 (product0 x0 x3) (val_main_v15 (F := Ideal) x1 x2) (val_main_v8 (F := Ideal) x2)
      (wrap (val_main_v3 (F := Ideal) x1)) (wrap (val_main_v6 (F := Ideal) x1))
  exact congrArg (scattered (val_main_v6 (F := Ideal) x1)) hmsg

variable (m : (ℓ : Loc nD τ sig) → Buf (Elt Ideal) ℓ) (ρ : Dev nD → PrngReg)

/-! ## What the first stretch leaves -/

set_option maxHeartbeats 4000000 in
theorem first_arg0 (c : Dev nD) : V1 m ρ c main_arg0 = m ((c : Thread nD τ).loc main_arg0) := by
  show after hostOps0 (W0 m ρ c) (Proc.devRef .tc main_arg0) = _
  after_results_simp
set_option maxHeartbeats 4000000 in
theorem first_arg3 (c : Dev nD) : V1 m ρ c main_arg3 = m ((c : Thread nD τ).loc main_arg3) := by
  show after hostOps0 (W0 m ρ c) (Proc.devRef .tc main_arg3) = _
  after_results_simp
/-! dinv is read in two pieces of the first stretch: up to the operands of the degree's scatter-add, and from that
    scatter-add to the select that guards the inverse square root. -/

abbrev early0 : List (HloOp τ sig (Elt Ideal)) := (hostOps0 (F := Ideal)).take 13
abbrev late0 : List (HloOp τ sig (Elt Ideal)) := (hostOps0 (F := Ideal)).drop 13

theorem early_late0 : (hostOps0 (F := Ideal)) = early0 ++ late0 := rfl

/-- dinv from the three operands of the degree's scatter-add: the inverse square root of the degree where the degree
    is positive, zero elsewhere. -/
def dinvOf (z : FVec Ideal S100000 .f32) (i : IVec S3300000x1 32) (u : FVec Ideal S3300000 .f32) : FVec Ideal S100000 .f32 :=
  select (cmpf .ogt (Host.scatterAdd scatter_S100000_S3300000x1_S3300000_n_0_0_1 z i u)
      (broadcastInDim S100000 ![] bcast_S_S100000 (constant S_ .f32 0x00000000#32)))
    (Host.rsqrt (Host.scatterAdd scatter_S100000_S3300000x1_S3300000_n_0_0_1 z i u))
    (broadcastInDim S100000 ![] bcast_S_S100000 (id (constant S_ .f32 0x00000000#32)))

set_option maxHeartbeats 4000000 in
theorem late0_dinv (G : Valuation τ sig (Elt Ideal)) : after late0 G (Proc.devRef .tc main_call0_v15)
    = dinvOf (G (Proc.devRef .tc main_call0_v9)) (G (Proc.devRef .tc main_call0_v10)) (G (Proc.devRef .tc main_call0_v8)) := by
  simp only [late0, hostOps0, List.drop]
  after_results_simp <;> rfl
set_option maxHeartbeats 4000000 in
theorem early0_zero (G : Valuation τ sig (Elt Ideal)) : after early0 G (Proc.devRef .tc main_call0_v9)
    = Cert.ReferenceIdeal.Read.val_main_v9 (F := Ideal) := by
  simp only [early0, hostOps0, List.take]
  after_results_simp <;> rfl
set_option maxHeartbeats 4000000 in
theorem early0_index (G : Valuation τ sig (Elt Ideal)) : after early0 G (Proc.devRef .tc main_call0_v10)
    = Cert.ReferenceIdeal.Read.val_main_v10 (F := Ideal) (G (Proc.devRef .tc main_arg1)) := by
  simp only [early0, hostOps0, List.take]
  after_results_simp <;> rfl
set_option maxHeartbeats 4000000 in
theorem early0_weights (G : Valuation τ sig (Elt Ideal)) : after early0 G (Proc.devRef .tc main_call0_v8)
    = val_main_v8 (F := Ideal) (G (Proc.devRef .tc main_arg2)) := by
  simp only [early0, hostOps0, List.take]
  after_results_simp <;> rfl

/-- The kernel's dinv of the reference's scatter operands is the reference's dinv. -/
theorem dinv_eq (x1 : IVec S2x3200000 32) (x2 : FVec Ideal S3200000 .f32) :
    dinvOf (Cert.ReferenceIdeal.Read.val_main_v9 (F := Ideal)) (Cert.ReferenceIdeal.Read.val_main_v10 (F := Ideal) x1)
        (val_main_v8 (F := Ideal) x2)
      = val_main_v15 (F := Ideal) x1 x2 := rfl

theorem first_dinv (c : Dev nD) : W1 m ρ c (Proc.devRef .tc main_call0_v15)
    = val_main_v15 (F := Ideal) (m ((c : Thread nD τ).loc main_arg1)) (m ((c : Thread nD τ).loc main_arg2)) := by
  show after (hostOps0 (F := Ideal)) (W0 m ρ c) (Proc.devRef .tc main_call0_v15) = _
  rw [early_late0, Cert.LibAfterAppend.after_append, late0_dinv, early0_zero, early0_index, early0_weights]
  exact dinv_eq _ _
set_option maxHeartbeats 4000000 in
theorem first_weights (c : Dev nD) : W1 m ρ c (Proc.devRef .tc main_call0_v8)
    = val_main_v8 (F := Ideal) (m ((c : Thread nD τ).loc main_arg2)) := by
  show after hostOps0 (W0 m ρ c) (Proc.devRef .tc main_call0_v8) = _
  after_results_simp <;> rfl
set_option maxHeartbeats 4000000 in
theorem first_sources (c : Dev nD) : W1 m ρ c (Proc.devRef .tc main_call0_v3)
    = val_main_v3 (F := Ideal) (m ((c : Thread nD τ).loc main_arg1)) := by
  show after hostOps0 (W0 m ρ c) (Proc.devRef .tc main_call0_v3) = _
  after_results_simp <;> rfl
set_option maxHeartbeats 4000000 in
theorem first_targets (c : Dev nD) : W1 m ρ c (Proc.devRef .tc main_call0_v6)
    = val_main_v6 (F := Ideal) (m ((c : Thread nD τ).loc main_arg1)) := by
  show after hostOps0 (W0 m ρ c) (Proc.devRef .tc main_call0_v6) = _
  after_results_simp <;> rfl

/-! ## What the second stretch finds: the first region's product, and the first stretch's four arrays untouched -/

theorem mid_product (c : Dev nD) : W2 m ρ c (Proc.devRef .tc main_call0_v16)
    = product0 (m ((c : Thread nD τ).loc main_arg0)) (m ((c : Thread nD τ).loc main_arg3)) :=
  (W2_arr m ρ c 2).trans ((final0 (V1 m ρ) c).trans (by rw [first_arg0 m ρ c, first_arg3 m ρ c]))
theorem mid_dinv (c : Dev nD) : W2 m ρ c (Proc.devRef .tc main_call0_v15)
    = val_main_v15 (F := Ideal) (m ((c : Thread nD τ).loc main_arg1)) (m ((c : Thread nD τ).loc main_arg2)) :=
  (W2_of_ne m ρ c main_call0_v15 (by decide)).trans (first_dinv m ρ c)
theorem mid_weights (c : Dev nD) : W2 m ρ c (Proc.devRef .tc main_call0_v8)
    = val_main_v8 (F := Ideal) (m ((c : Thread nD τ).loc main_arg2)) :=
  (W2_of_ne m ρ c main_call0_v8 (by decide)).trans (first_weights m ρ c)
theorem mid_sources (c : Dev nD) : W2 m ρ c (Proc.devRef .tc main_call0_v3)
    = val_main_v3 (F := Ideal) (m ((c : Thread nD τ).loc main_arg1)) :=
  (W2_of_ne m ρ c main_call0_v3 (by decide)).trans (first_sources m ρ c)
theorem mid_targets (c : Dev nD) : W2 m ρ c (Proc.devRef .tc main_call0_v6)
    = val_main_v6 (F := Ideal) (m ((c : Thread nD τ).loc main_arg1)) :=
  (W2_of_ne m ρ c main_call0_v6 (by decide)).trans (first_targets m ρ c)

/-! ## What the second region finds -/

theorem entry_aggregate (c : Dev nD) : V3 m ρ c main_call0_v42
    = val_main_v45 (F := Ideal) (m ((c : Thread nD τ).loc main_arg0)) (m ((c : Thread nD τ).loc main_arg1))
        (m ((c : Thread nD τ).loc main_arg2)) (m ((c : Thread nD τ).loc main_arg3)) := by
  show after (hostOps1 (F := Ideal)) (W2 m ρ c) (Proc.devRef .tc main_call0_v42) = _
  rw [stretch_aggregate, mid_product, mid_dinv, mid_weights, mid_sources, mid_targets]
  exact aggregate_eq _ _ _ _

/-- An input array of the second region is what the region finds in it, and ends as launched. -/
theorem entry_bias1 (c : Dev nD) : V3 m ρ c main_arg4 = m ((c : Thread nD τ).loc main_arg4) :=
  ((W4_arr m ρ c 1).trans (((dat1 (V3 m ρ) c).arrAt_in 1 rfl _).trans (A_eq1 (V3 m ρ) c 1))).symm.trans (W4_main_arg4 m ρ c)
theorem entry_weights (c : Dev nD) : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)
theorem entry_bias2 (c : Dev nD) : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)

/-! ## The result -/

/-- After the run the result array is the reference's result function of the argument arrays as launched. -/
theorem result_value (c : Dev nD) : W4 m ρ c (Proc.devRef .tc main_v0)
    = val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  rw [W4_result, final1, entry_aggregate, entry_bias1, entry_weights, entry_bias2]
  exact (Cert.RefLayer.result_is_layer _ _ _ _ _ _ _).symm

end Cert.KernelIdeal.Whole

end
-- ==== Proof.lean ====
/-
  A two-layer graph convolution: the tiled kernel against its plain reference.

  Both programs compute, for a graph with self loops added,
      out = relu (Â · (X · W₁) + b₁) · W₂ + b₂,   Â[c, r] = Σ_{e : r → c} dinv[r] · w e · dinv[c],
  with dinv the inverse square root of the weighted in-degree where that is positive and zero elsewhere.  The
  reference multiplies each gathered source row of X · W₁ by the edge's whole normalisation.  The kernel computes
  X · W₁ and the output layer block by block over ten blocks of 10000 rows, and between them scales every row of
  X · W₁ by its own dinv before gathering, leaving  w e · dinv[c]  for the edge.  At the ideal values — floats
  extended reals, every operation exact, a change of float format the identity — a block's matrix product into a
  zero accumulator is the whole product at the block's rows, and a message is the same product of four extended
  reals grouped two ways, equal by associativity.  The degrees, dinv, the index arrays and both scatter-adds are
  the same operations on both sides and are never opened.  No finiteness of the inputs is used.

  The three frame claims are the generated frames (the reference's its generated run with the result dropped);
  the idealization rewrote nothing, so `preserves` is trivial; `algebraic` puts the kernel's run, with its result
  array read back to the reference's result function of the arguments, beside the reference's generated run.
-/
import proofs.«129896_j72825465471158_2_alg».proof.Defs
import proofs.«129896_j72825465471158_2_alg».proof.Proof.Gen.Kernel
import proofs.«129896_j72825465471158_2_alg».proof.Proof.Gen.Kernel.Skeleton
import proofs.«129896_j72825465471158_2_alg».proof.Proof.Gen.Kernel.Launch
import proofs.«129896_j72825465471158_2_alg».proof.Proof.Gen.Kernel.Points
import proofs.«129896_j72825465471158_2_alg».proof.Proof.Gen.Kernel.Frame
import proofs.«129896_j72825465471158_2_alg».proof.Proof.Gen.KernelIdeal
import proofs.«129896_j72825465471158_2_alg».proof.Proof.Gen.KernelIdeal.Skeleton
import proofs.«129896_j72825465471158_2_alg».proof.Proof.Gen.KernelIdeal.Launch
import proofs.«129896_j72825465471158_2_alg».proof.Proof.Gen.KernelIdeal.Points
import proofs.«129896_j72825465471158_2_alg».proof.Proof.Gen.KernelIdeal.Frame
import proofs.«129896_j72825465471158_2_alg».proof.Proof.Gen.ReferenceIdeal
import proofs.«129896_j72825465471158_2_alg».proof.Proof.Gen.ReferenceIdeal.Run
import proofs.«129896_j72825465471158_2_alg».proof.Proof.Gen.ReferenceIdeal.Read
import proofs.«129896_j72825465471158_2_alg».proof.Proof.Gen.Pre_finite_inputs
import proofs.«129896_j72825465471158_2_alg».proof.Proof.KernelRun
import proofs.«129896_j72825465471158_2_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the reference's
    result function of the kernel's argument arrays. -/
theorem algebraic : Cert.algebraic_KernelIdeal_ReferenceIdeal := by
  intro m ρ m' ρ' _ hagree
  refine ⟨fun c => Cert.ReferenceIdeal.Read.val_main_v53 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c =>
      ⟨(h c _ (Cert.KernelIdeal.Gen.mem_uc Cert.KernelIdeal.main_v0 (by decide))).trans (Cert.KernelIdeal.Whole.result_value m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c)⟩)
      (Cert.KernelIdeal.Whole.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
